-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x40 : Shape := ⟨2, ![50000, 40]⟩
abbrev S5000x40 : Shape := ⟨2, ![5000, 40]⟩
abbrev S1650000x40 : Shape := ⟨2, ![1650000, 40]⟩
abbrev S1x40 : Shape := ⟨2, ![1, 40]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x40, .f32⟩
  | .hbm, ⟨79, _⟩ => ⟨S1650000x1, .f32⟩
  | .hbm, ⟨80, _⟩ => ⟨S1650000x40, .f32⟩
  | .hbm, ⟨81, _⟩ => ⟨S1650000x40, .f32⟩
  | .hbm, ⟨82, _⟩ => ⟨S_, .f32⟩
  | .hbm, ⟨83, _⟩ => ⟨S50000x40, .f32⟩
  | .hbm, ⟨84, _⟩ => ⟨S1650000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x40_S5000x40_1_0_0_1_n_n_wf : DotDims.WF S5000x128 S128x40 S5000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S50000x128 : Shape := ⟨2, ![50000, 128]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S1650000x40 : Shape := ⟨2, ![1650000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S50000x128, .f32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .f32⟩
  | .hbm, ⟨71, _⟩ => ⟨S1650000, .f32⟩
  | .hbm, ⟨72, _⟩ => ⟨S_, .f32⟩
  | .hbm, ⟨73, _⟩ => ⟨S50000, .f32⟩
  | .hbm, ⟨74, _⟩ => ⟨S1650000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S1650000, .i32⟩
  | .hbm, ⟨86, _⟩ => ⟨S1650000, .i1⟩
  | .hbm, ⟨87, _⟩ => ⟨S_, .i32⟩
  | .hbm, ⟨88, _⟩ => ⟨S1650000, .i32⟩
  | .hbm, ⟨89, _⟩ => ⟨S1650000, .i32⟩
  | .hbm, ⟨90, _⟩ => ⟨S1650000, .i32⟩
  | .hbm, ⟨91, _⟩ => ⟨S1650000x1, .i32⟩
  | .hbm, ⟨92, _⟩ => ⟨S1650000, .f32⟩
  | .hbm, ⟨93, _⟩ => ⟨S_, .i32⟩
  | .hbm, ⟨94, _⟩ => ⟨S1650000, .i32⟩
  | .hbm, ⟨95, _⟩ => ⟨S1650000, .i1⟩
  | .hbm, ⟨96, _⟩ => ⟨S_, .i32⟩
  | .hbm, ⟨97, _⟩ => ⟨S1650000, .i32⟩
  | .hbm, ⟨98, _⟩ => ⟨S1650000, .i32⟩
  | .hbm, ⟨99, _⟩ => ⟨S1650000, .i32⟩
  | .hbm, ⟨100, _⟩ => ⟨S1650000x1, .i32⟩
  | .hbm, ⟨101, _⟩ => ⟨S1650000, .f32⟩
  | .hbm, ⟨102, _⟩ => ⟨S1650000, .f32⟩
  | .hbm, ⟨103, _⟩ => ⟨S_, .i32⟩
  | .hbm, ⟨104, _⟩ => ⟨S1650000, .i32⟩
  | .hbm, ⟨105, _⟩ => ⟨S1650000, .i1⟩
  | .hbm, ⟨106, _⟩ => ⟨S_, .i32⟩
  | .hbm, ⟨107, _⟩ => ⟨S1650000, .i32⟩
  | .hbm, ⟨108, _⟩ => ⟨S1650000, .i32⟩
  | .hbm, ⟨109, _⟩ => ⟨S1650000, .i32⟩
  | .hbm, ⟨110, _⟩ => ⟨S1650000x1, .i32⟩
  | .hbm, ⟨111, _⟩ => ⟨S1650000x40, .f32⟩
  | .hbm, ⟨112, _⟩ => ⟨S1650000x1, .f32⟩
  | .hbm, ⟨113, _⟩ => ⟨S1650000x40, .f32⟩
  | .hbm, ⟨114, _⟩ => ⟨S1650000x40, .f32⟩
  | .hbm, ⟨115, _⟩ => ⟨S_, .f32⟩
  | .hbm, ⟨116, _⟩ => ⟨S50000x40, .f32⟩
  | .hbm, ⟨117, _⟩ => ⟨S1650000x1, .i32⟩
  | .hbm, ⟨118, _⟩ => ⟨S50000x40, .f32⟩
  | .hbm, ⟨119, _⟩ => ⟨S1x40, .f32⟩
  | .hbm, ⟨120, _⟩ => ⟨S50000x40, .f32⟩
  | .hbm, ⟨121, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.Layers.lean ====
/- The graph convolution's host side, as functions of arrays. Every edge (s, d) of the edge table, together with one
   self loop per node, carries the weight norm = dinv[s] · dinv[d], where dinv is the inverse square root of the
   in-degree (counted with the self loops; zero where the degree is not positive). A layer gathers the rows of a node
   matrix h at the edges' sources, scales each by its edge's weight, and adds them into the rows of the edges'
   targets. The first layer then adds a bias row and clamps at zero; the second only adds its bias row. Both programs
   apply exactly these operations around their two matrix products, so the functions are stated once, here, in the
   vocabulary of the reference program, and no proof ever opens them further than to compare spellings. -/
import proofs.«151778_j3848290697713_1_alg».proof.Proof.Gen.ReferenceIdeal

noncomputable section

namespace Cert.Gcn

open Cert.ReferenceIdeal Cert.ReferenceIdeal.Gen Idealize.ShloMosaic

variable {F : FTy → Type} [FloatOps F]

/-- The edges' source nodes: row 0 of the edge table, then the self loops 0, 1, …, 49999. -/
def src (ei : (⟨S2x1600000, .i32⟩ : BufTy).Contents (Elt F)) : (⟨S1650000, .i32⟩ : BufTy).Contents (Elt F) :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- The edges' target nodes: row 1 of the edge table, then the self loops. -/
def dst (ei : (⟨S2x1600000, .i32⟩ : BufTy).Contents (Elt F)) : (⟨S1650000, .i32⟩ : BufTy).Contents (Elt F) :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- A list of node numbers as a column of gather indices, a negative number counted from the end (n + 50000). -/
def wrapped (idx : (⟨S1650000, .i32⟩ : BufTy).Contents (Elt F)) : (⟨S1650000x1, .i32⟩ : BufTy).Contents (Elt F) :=
  broadcastInDim S1650000x1 ![0] bcast_S1650000_S1650000x1_0 (select (cmpi .slt idx (broadcastInDim S1650000 ![] bcast_S_S1650000 (constantI S_ 32 0#32))) (addi idx (broadcastInDim S1650000 ![] bcast_S_S1650000 (constantI S_ 32 50000#32))) idx)

/-- The in-degree of every node, self loops counted: ones added at the edges' targets `d`. -/
def deg (d : (⟨S1650000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 d) (broadcastInDim S1650000 ![] bcast_S_S1650000 (constant S_ .f32 0x3F800000#32))

/-- deg^(-1/2) where the degree is positive, zero elsewhere. -/
def dinv (d : (⟨S1650000, .i32⟩ : BufTy).Contents (Elt F)) : (⟨S50000, .f32⟩ : BufTy).Contents (Elt F) :=
  select (cmpf .ogt (deg d) (broadcastInDim S50000 ![] bcast_S_S50000 (constant S_ .f32 0x00000000#32))) (Host.rsqrt (deg d)) (broadcastInDim S50000 ![] bcast_S_S50000 (id (constant S_ .f32 0x00000000#32)))

/-- The weight of every edge: dinv at its source times dinv at its target. -/
def norm (s d : (⟨S1650000, .i32⟩ : BufTy).Contents (Elt F)) : (⟨S1650000, .f32⟩ : BufTy).Contents (Elt F) :=
  mulf (Host.gather gather_S50000_S1650000x1_S1650000_n_0_n_n_0_1_1 (dinv d) (wrapped s)) (Host.gather gather_S50000_S1650000x1_S1650000_n_0_n_n_0_1_1 (dinv d) (wrapped d))

/-- The first layer after its matrix product h, over edges s → d of weights w: rows gathered at the sources, weighted,
    summed at the targets; the bias row added; the result clamped at zero from below. -/
def layer1 (h : (⟨S50000x128, .f32⟩ : BufTy).Contents (Elt F)) (s d : (⟨S1650000, .i32⟩ : BufTy).Contents (Elt F))
    (w : (⟨S1650000, .f32⟩ : BufTy).Contents (Elt F)) (b : (⟨S128, .f32⟩ : BufTy).Contents (Elt F)) :
    (⟨S50000x128, .f32⟩ : BufTy).Contents (Elt F) :=
  maximumf (addf (Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 d) (mulf (Host.gather gather_S50000x128_S1650000x1_S1650000x128_1_0_n_n_0_1_1128 h (wrapped s)) (broadcastInDim S1650000x128 ![0, 1] bcast_S1650000x1_S1650000x128_0_1 (broadcastInDim S1650000x1 ![0] bcast_S1650000_S1650000x1_0 w)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The second layer after its matrix product h: the same aggregation over 40 columns, and the bias row added. -/
def layer2 (h : (⟨S50000x40, .f32⟩ : BufTy).Contents (Elt F)) (s d : (⟨S1650000, .i32⟩ : BufTy).Contents (Elt F))
    (w : (⟨S1650000, .f32⟩ : BufTy).Contents (Elt F)) (b : (⟨S40, .f32⟩ : BufTy).Contents (Elt F)) :
    (⟨S50000x40, .f32⟩ : BufTy).Contents (Elt F) :=
  addf (Host.scatterAdd scatter_S50000x40_S1650000x1_S1650000x40_1_0_0_1 (broadcastInDim S50000x40 ![] bcast_S_S50000x40 (constant S_ .f32 0x00000000#32)) (broadcastInDim S1650000x1 ![0] bcast_S1650000_S1650000x1_0 d) (mulf (Host.gather gather_S50000x40_S1650000x1_S1650000x40_1_0_n_n_0_1_140 h (wrapped s)) (broadcastInDim S1650000x40 ![0, 1] bcast_S1650000x1_S1650000x40_0_1 (broadcastInDim S1650000x1 ![0] bcast_S1650000_S1650000x1_0 w)))) (broadcastInDim S50000x40 ![0, 1] bcast_S1x40_S50000x40_0_1 (broadcastInDim S1x40 ![1] bcast_S40_S1x40_1 b))

/-- The host's two matrix products, as the reference spells them. -/
def hostDot1 (x : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none x w
def hostDot2 (x : (⟨S50000x128, .f32⟩ : BufTy).Contents (Elt F)) (w : (⟨S128x40, .f32⟩ : BufTy).Contents (Elt F)) :
    (⟨S50000x40, .f32⟩ : BufTy).Contents (Elt F) :=
  Host.dotGeneral dot_S50000x128_S128x40_S50000x40_1_0_0_1_n_n none x w

/-- The whole network over edges s → d: layer 2 of (layer 1 of x·W1)·W2, every edge weighted by `norm s d`. -/
def net (x : (⟨S50000x256, .f32⟩ : BufTy).Contents (Elt F)) (s d : (⟨S1650000, .i32⟩ : BufTy).Contents (Elt F))
    (w1 : (⟨S256x128, .f32⟩ : BufTy).Contents (Elt F)) (b1 : (⟨S128, .f32⟩ : BufTy).Contents (Elt F))
    (w2 : (⟨S128x40, .f32⟩ : BufTy).Contents (Elt F)) (b2 : (⟨S40, .f32⟩ : BufTy).Contents (Elt F)) :
    (⟨S50000x40, .f32⟩ : BufTy).Contents (Elt F) :=
  layer2 (hostDot2 (layer1 (hostDot1 x w1) s d (norm s d) b1) w2) s d (norm s d) b2

end Cert.Gcn

end
-- ==== Proof.KernelRun.lean ====
/- The idealized kernel's run with its result named. The generated frame certificate walks @main segment by segment
   and knows the contents of every unscoped buffer at the last boundary (the fold `Gen.W8` of the host stretches and
   the two regions' write-backs over the launch memory), but states of the final state only that the arguments are
   unchanged. Here the same launch is read once more at the result buffer: every weakly fair execution terminates with
   the result at `Gen.W8`'s value there, and the arguments as launched. -/
import proofs.«151778_j3848290697713_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.MatmulBlocks.lean ====
/- The two matrix products of the kernel, each a pipeline over ten row blocks of 5000 rows with the weight matrix staged
   whole. A point's body multiplies its row block by the weights into a zero accumulator (the change of float format on
   the way in is the identity on the extended reals), so entry (p, q) of block t is the sum over the contraction
   coordinate of X(5000·t + p, k) · W(k, q): entry (5000·t + p, q) of the whole product, which is what the host's
   contraction of the whole arrays has there. The ten blocks tile the output array, so after the region the array is the
   host's product of the arrays the region found. -/
import proofs.«151778_j3848290697713_1_alg».proof.Proof.Layers
import proofs.«151778_j3848290697713_1_alg».proof.Proof.LibPlainMatmul
import proofs.«151778_j3848290697713_1_alg».proof.Proof.LibPlainDot
import proofs.«151778_j3848290697713_1_alg».proof.Proof.Gen.KernelIdeal.Frame
import Idealize.ShloMosaic.Lib.Pipeline.Value
import Idealize.ShloMosaic.Lib.ValueIdx

set_option maxRecDepth 16384

noncomputable section

namespace Cert.KernelIdeal.Blocks

open scoped BigOperators
open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-! ## Region 0: 50000×256 times 256×128, ten row blocks of 5000 -/

/-- The body's product at coordinates: row p of the block against column q of the weights. -/
theorem pay0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.Lib.PlainMatmul.plain_matmul_zero_apply (M := 5000) (K := 256) (N := 128) (φ₁ := .bf16) (φ₂ := .bf16) x0 x1 p q

/-- The host's product at coordinates. -/
theorem dot0_apply (X : Vec Ideal Cert.ReferenceIdeal.S50000x256 .f32) (W : Vec Ideal Cert.ReferenceIdeal.S256x128 .f32) (r : Fin 50000) (q : Fin 128) :
    Cert.Gcn.hostDot1 X W (ix2 r q) = ∑ k : Fin 256, X (ix2 r k) * W (ix2 k q) := by
  unfold Cert.Gcn.hostDot1
  exact Cert.Lib.PlainDot.plain_dotGeneral_apply (M := 50000) (K := 256) (N := 128) none _ X W r q

/-- One entry of a block's product is the whole product's entry 5000·b rows further down, when the block's rows are
    rows 5000·b … of the left matrix and the right matrix is staged whole. -/
theorem block0_eq (x0 : Vec Ideal S5000x256 .f32) (x1 : Vec Ideal S256x128 .f32) (X : Vec Ideal Cert.ReferenceIdeal.S50000x256 .f32) (W : Vec Ideal Cert.ReferenceIdeal.S256x128 .f32)
    (p : Fin 5000) (q : Fin 128) (r : Fin 50000)
    (hx0 : ∀ k : Fin 256, x0 (ix2 p k) = X (ix2 r k))
    (hx1 : x1 = W) : k0_pay1 x0 x1 (ix2 p q) = Cert.Gcn.hostDot1 X W (ix2 r q) := by
  subst hx1
  rw [pay0_apply, dot0_apply]
  exact Finset.sum_congr rfl fun k _ => by rw [hx0]

/-- The printed index maps, decided over the grid: the left operand's block and the output's block are row block t, the
    weights are staged whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed0_eq (c : Dev nD) (t : Fin cfg0.N) :
    (dat0 V c).flushed 2 t = ((cfg0.win 2).blk t).view.read (Elt Ideal) (Cert.Gcn.hostDot1 (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e00, e01, e10, e11, e20, e21⟩ := idx_facts0 t
  have ht : t.val < 10 := lt_of_lt_of_eq t.isLt N_0
  funext j
  obtain ⟨p, q, rfl⟩ : ∃ (p : Fin 5000) (q : Fin 128), j = ix2 p q := ⟨j 0, j 1, eq_ix2 j⟩
  have hemb : ((cfg0.win 2).blk t).view.emb (ix2 p q) = ix2 (⟨t.val * 5000 + p.val, by have := p.isLt; omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = Cert.Gcn.hostDot1 (V c main_arg0) (V c main_arg2) (((cfg0.win 2).blk t).view.emb (ix2 p q))
  rw [hemb]
  refine block0_eq (iblk0 V c 0 t) (iblk0 V c 1 t) (V c main_arg0) (V c main_arg2) p q _ ?_ ?_
  · intro k
    show V c main_arg0 (((cfg0.win 0).blk t).view.emb (ix2 p k)) = V c main_arg0 (ix2 (⟨t.val * 5000 + p.val, _⟩ : Fin 50000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the output lies in the block of the point numbered (row / 5000). -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN := N_0
  let t : Fin cfg0.N := ⟨(i 0).val / 5000, by show (i 0).val / 5000 < grid0.N; omega⟩
  obtain ⟨e00, e01, e10, e11, e20, e21⟩ := idx_facts0 t
  have tv : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the two input arrays as the region finds them. -/
theorem final0 (c : Dev nD) : (dat0 V c).arrAt 2 cfg0.N = Cert.Gcn.hostDot1 (V c main_arg0) (V c main_arg2) :=
  (dat0 V c).arrAt_eq_of_cover 2 _ (fun t _ => flushed0_eq V c t) cover0

/-! ## Region 1: 50000×128 times 128×40, ten row blocks of 5000 -/

/-- The body's product at coordinates: row p of the block against column q of the weights. -/
theorem pay1_apply (x0 : Vec Ideal S5000x128 .f32) (x1 : Vec Ideal S128x40 .f32) (p : Fin 5000) (q : Fin 40) :
    k1_pay1 x0 x1 (ix2 p q) = ∑ k : Fin 128, x0 (ix2 p k) * x1 (ix2 k q) := by
  unfold k1_pay1
  rw [shapeCast_self x0]
  exact Cert.Lib.PlainMatmul.plain_matmul_zero_apply (M := 5000) (K := 128) (N := 40) (φ₁ := .bf16) (φ₂ := .bf16) x0 x1 p q

/-- The host's product at coordinates. -/
theorem dot1_apply (X : Vec Ideal Cert.ReferenceIdeal.S50000x128 .f32) (W : Vec Ideal Cert.ReferenceIdeal.S128x40 .f32) (r : Fin 50000) (q : Fin 40) :
    Cert.Gcn.hostDot2 X W (ix2 r q) = ∑ k : Fin 128, X (ix2 r k) * W (ix2 k q) := by
  unfold Cert.Gcn.hostDot2
  exact Cert.Lib.PlainDot.plain_dotGeneral_apply (M := 50000) (K := 128) (N := 40) none _ X W r q

/-- One entry of a block's product is the whole product's entry 5000·b rows further down, when the block's rows are
    rows 5000·b … of the left matrix and the right matrix is staged whole. -/
theorem block1_eq (x0 : Vec Ideal S5000x128 .f32) (x1 : Vec Ideal S128x40 .f32) (X : Vec Ideal Cert.ReferenceIdeal.S50000x128 .f32) (W : Vec Ideal Cert.ReferenceIdeal.S128x40 .f32)
    (p : Fin 5000) (q : Fin 40) (r : Fin 50000)
    (hx0 : ∀ k : Fin 128, x0 (ix2 p k) = X (ix2 r k))
    (hx1 : x1 = W) : k1_pay1 x0 x1 (ix2 p q) = Cert.Gcn.hostDot2 X W (ix2 r q) := by
  subst hx1
  rw [pay1_apply, dot1_apply]
  exact Finset.sum_congr rfl fun k _ => by rw [hx0]

/-- The printed index maps, decided over the grid: the left operand's block and the output's block are row block t, the
    weights are staged whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the region finds. -/
theorem flushed1_eq (c : Dev nD) (t : Fin cfg1.N) :
    (dat1 V c).flushed 2 t = ((cfg1.win 2).blk t).view.read (Elt Ideal) (Cert.Gcn.hostDot2 (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x40) hz]
  obtain ⟨e00, e01, e10, e11, e20, e21⟩ := idx_facts1 t
  have ht : t.val < 10 := lt_of_lt_of_eq t.isLt N_1
  funext j
  obtain ⟨p, q, rfl⟩ : ∃ (p : Fin 5000) (q : Fin 40), j = ix2 p q := ⟨j 0, j 1, eq_ix2 j⟩
  have hemb : ((cfg1.win 2).blk t).view.emb (ix2 p q) = ix2 (⟨t.val * 5000 + p.val, by have := p.isLt; omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 40 + 1 * q.val = q.val; omega
  show k1_pay1 (iblk1 V c 0 t) (iblk1 V c 1 t) (ix2 p q) = Cert.Gcn.hostDot2 (V c main_v47) (V c main_arg4) (((cfg1.win 2).blk t).view.emb (ix2 p q))
  rw [hemb]
  refine block1_eq (iblk1 V c 0 t) (iblk1 V c 1 t) (V c main_v47) (V c main_arg4) p q _ ?_ ?_
  · intro k
    show V c main_v47 (((cfg1.win 0).blk t).view.emb (ix2 p k)) = V c main_v47 (ix2 (⟨t.val * 5000 + p.val, _⟩ : Fin 50000) k)
    refine congrArg (V c main_v47) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · funext y
    show V c main_arg4 (((cfg1.win 1).blk t).view.emb y) = V c main_arg4 y
    refine congrArg (V c main_arg4) (funext fun a => Fin.ext ?_)
    match a with
    | ⟨0, _⟩ => show win1_1.index t (0 : Fin 2) * 128 + 1 * (y 0).val = (y 0).val; omega
    | ⟨1, _⟩ => show win1_1.index t (1 : Fin 2) * 40 + 1 * (y 1).val = (y 1).val; omega

/-- An index of the output array is in point t's block iff each coordinate is in the block's range on its axis. -/
theorem mem_blk1 (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- Every row of the output lies in the block of the point numbered (row / 5000). -/
theorem cover1 (i : S50000x40.Idx) : ∃ t : Fin cfg1.N, (cfg1.win 2).flush t = true ∧ i ∈ ((cfg1.win 2).blk t).view.set := by
  have hi0 : (i 0).val < 50000 := (i 0).isLt
  have hi1 : (i 1).val < 40 := (i 1).isLt
  have hN := N_1
  let t : Fin cfg1.N := ⟨(i 0).val / 5000, by show (i 0).val / 5000 < grid1.N; omega⟩
  obtain ⟨e00, e01, e10, e11, e20, e21⟩ := idx_facts1 t
  have tv : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The output array after the region: the whole product of the two input arrays as the region finds them. -/
theorem final1 (c : Dev nD) : (dat1 V c).arrAt 2 cfg1.N = Cert.Gcn.hostDot2 (V c main_v47) (V c main_arg4) :=
  (dat1 V c).arrAt_eq_of_cover 2 _ (fun t _ => flushed1_eq V c t) cover1

end Cert.KernelIdeal.Blocks

end
-- ==== Proof.LibWrites.lean ====
/-
  General facts about a straight line of host operations in single-assignment form.

  `Writes l W` says that operation number k of the line `l` writes exactly reference number k of the list `W`.
  A reference that is not in `W` keeps its contents through the line; the contents of a reference at the end of
  the line are its contents after any prefix that contains every operation writing it; and when no operation from
  position i on writes an operand, the result of operation i at the end of the line is its function applied to the
  operands' contents at the end of the line (the single-assignment equations of the line).
-/
import Idealize.ShloMosaic.Lib.StableHlo.Run

namespace Idealize.ShloMosaic.StableHlo

variable {τ : Topo} {sig : RefSig} {Val : EltTy → Type}

/-- Running `l₁ ++ l₂` is running `l₁` and then `l₂`. -/
theorem after_app (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The line cut at position `s`: the first `s` operations, then the rest. -/
theorem after_split (l : List (HloOp τ sig Val)) (s : Nat) (V : Valuation τ sig Val) :
    after l V = after (l.drop s) (after (l.take s) V) := by
  rw [← after_app, List.take_append_drop]

/-- Operation number k of `l` writes exactly reference number k of `W`. -/
def Writes : List (HloOp τ sig Val) → List (Ref sig .tc) → Prop
  | [], [] => True
  | op :: ops, y :: ys => op.writes = {Proc.devRef .tc y} ∧ Writes ops ys
  | [], _ :: _ => False
  | _ :: _, [] => False

theorem Writes.drop : ∀ {l : List (HloOp τ sig Val)} {W : List (Ref sig .tc)}, Writes l W → ∀ n : Nat, Writes (l.drop n) (W.drop n)
  | _, _, h, 0 => h
  | [], [], _, _ + 1 => trivial
  | _ :: _, _ :: _, h, n + 1 => Writes.drop h.2 n
  | [], _ :: _, h, _ + 1 => h.elim
  | _ :: _, [], h, _ + 1 => h.elim

/-- A reference the line does not write keeps its contents. -/
theorem after_of_writes : ∀ {l : List (HloOp τ sig Val)} {W : List (Ref sig .tc)}, Writes l W → ∀ {r : Ref sig .tc}, r ∉ W →
    ∀ V : Valuation τ sig Val, after l V (Proc.devRef .tc r) = V (Proc.devRef .tc r)
  | [], [], _, _, _, _ => rfl
  | op :: ops, y :: ys, h, r, hr, V => by
    rw [after_cons, after_of_writes h.2 (fun hm => hr (List.mem_cons_of_mem _ hm)),
      op.result_of_not_mem V (by
        rw [h.1, Finset.mem_singleton]
        exact devRef_ne_of_ne (fun e => hr (e ▸ List.mem_cons_self)))]
  | [], _ :: _, h, _, _, _ => h.elim
  | _ :: _, [], h, _, _, _ => h.elim

/-- The contents of a reference at the end of the line are its contents after the first `e` operations, when no
    later operation writes it. -/
theorem after_eq_take {l : List (HloOp τ sig Val)} {W : List (Ref sig .tc)} (h : Writes l W) (e : Nat) {r : Ref sig .tc}
    (hr : r ∉ W.drop e) (V : Valuation τ sig Val) :
    after l V (Proc.devRef .tc r) = after (l.take e) V (Proc.devRef .tc r) := by
  rw [after_split l e V]; exact after_of_writes (h.drop e) hr _

/-- Operation `i` heads the rest of the line from position `i`. -/
theorem drop_eq_cons {l : List (HloOp τ sig Val)} {i : Nat} {op : HloOp τ sig Val} (hi : l[i]? = some op) :
    l.drop i = op :: l.drop (i + 1) := by
  obtain ⟨hlt, he⟩ := List.getElem?_eq_some_iff.mp hi
  rw [← he]; exact List.drop_eq_getElem_cons hlt

/-- What the line leaves in the result of its operation `i`, in terms of the contents after the first `i`
    operations. -/
theorem after_at {l : List (HloOp τ sig Val)} {W : List (Ref sig .tc)} (h : Writes l W) (i : Nat) {op : HloOp τ sig Val}
    (hi : l[i]? = some op) {y : Ref sig .tc} (hy : y ∉ W.drop (i + 1)) (V : Valuation τ sig Val) :
    after l V (Proc.devRef .tc y) = op.result (after (l.take i) V) (Proc.devRef .tc y) := by
  rw [after_split l i V, drop_eq_cons hi, after_cons]
  exact after_of_writes (h.drop (i + 1)) hy _

section Equations
variable {l : List (HloOp τ sig Val)} {W : List (Ref sig .tc)} {x a b y : Ref sig .tc}

/-- The single-assignment equation of a nullary operation. -/
theorem ssa_nullary (h : Writes l W) (i : Nat) {v : y.ty.Contents Val} {hy}
    (hi : l[i]? = some (nullary (τ := τ) y v hy)) (hyW : y ∉ W.drop (i + 1)) (V : Valuation τ sig Val) :
    after l V (Proc.devRef .tc y) = v := by
  rw [after_at h i hi hyW, nullary_result]

/-- The single-assignment equation of a unary operation. -/
theorem ssa_unary (h : Writes l W) (i : Nat) {f : x.ty.Contents Val → y.ty.Contents Val} {hx hy}
    (hi : l[i]? = some (unary (τ := τ) x y f hx hy)) (hyW : y ∉ W.drop (i + 1)) (hxW : x ∉ W.drop i)
    (V : Valuation τ sig Val) :
    after l V (Proc.devRef .tc y) = f (after l V (Proc.devRef .tc x)) := by
  rw [after_at h i hi hyW, unary_result, after_eq_take h i hxW]

/-- The single-assignment equation of a binary operation. -/
theorem ssa_binary (h : Writes l W) (i : Nat) {f : a.ty.Contents Val → b.ty.Contents Val → y.ty.Contents Val} {ha hb hy}
    (hi : l[i]? = some (binary (τ := τ) a b y f ha hb hy)) (hyW : y ∉ W.drop (i + 1)) (haW : a ∉ W.drop i) (hbW : b ∉ W.drop i)
    (V : Valuation τ sig Val) :
    after l V (Proc.devRef .tc y) = f (after l V (Proc.devRef .tc a)) (after l V (Proc.devRef .tc b)) := by
  rw [after_at h i hi hyW, binary_result, after_eq_take h i haW, after_eq_take h i hbW]

/-- The single-assignment equation of a reshape. -/
theorem ssa_reshape (h : Writes l W) (i : Nat) {he hn hx hy}
    (hi : l[i]? = some (reshape (τ := τ) (Val := Val) x y he hn hx hy)) (hyW : y ∉ W.drop (i + 1)) (hxW : x ∉ W.drop i)
    (V : Valuation τ sig Val) :
    after l V (Proc.devRef .tc y) = fun j => he ▸ shapeCast y.ty.shape (after l V (Proc.devRef .tc x)) hn j := by
  rw [after_at h i hi hyW, reshape_result, after_eq_take h i hxW]

/-- The single-assignment equation of an operation of any number of operands. -/
theorem ssa_nary (h : Writes l W) (i : Nat) {n : Nat} {xs : Fin n → Ref sig .tc}
    {f : ((k : Fin n) → (xs k).ty.Contents Val) → y.ty.Contents Val} {hxs hy}
    (hi : l[i]? = some (nary (τ := τ) xs y f hxs hy)) (hyW : y ∉ W.drop (i + 1)) (hxW : ∀ k, xs k ∉ W.drop i)
    (V : Valuation τ sig Val) :
    after l V (Proc.devRef .tc y) = f (fun k => after l V (Proc.devRef .tc (xs k))) := by
  rw [after_at h i hi hyW, nary_result]
  congr 1; funext k; exact (after_eq_take h i (hxW k) V).symm

end Equations

end Idealize.ShloMosaic.StableHlo
-- ==== Proof.HostValue.lean ====
/- The idealized kernel's result buffer, read through @main's fold. The host operations come in three stretches around
   the two matrix-product regions: before the first, the edge lists with their self loops and the edge weights; between
   the two, the first layer's aggregation, bias and clamp; after the second, the second layer's aggregation and bias.
   Each stretch is read, for ANY contents it starts from, as one of the layer functions of the buffers it reads; a region
   leaves in its output array the host's product of its two input arrays and touches nothing else. Chained from the
   launch memory, the result buffer ends at the network function of the six arguments. -/
import proofs.«151778_j3848290697713_1_alg».proof.Proof.Layers
import proofs.«151778_j3848290697713_1_alg».proof.Proof.MatmulBlocks
import proofs.«151778_j3848290697713_1_alg».proof.Proof.LibWrites
import proofs.«151778_j3848290697713_1_alg».proof.Proof.Gen.KernelIdeal.Frame

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem

/-! ## The stretches, from any contents -/

section Stretches

variable {F : FTy → Type} [FloatOps F] (V : Valuation τ sig (Elt F))

/-- Which buffer each operation writes, stretch by stretch: no stretch writes an argument. -/
theorem writes0 : Writes (hostOps0 (F := F)) [main_v0, main_v1, main_v2, main_v3, main_v4, main_v5, main_v6, main_cst, main_v7, main_cst_0, main_v8, main_v9, main_v10, main_cst_1, main_v11, main_v12, main_v13, main_cst_2] :=
  ⟨nullary_writes .., unary_writes .., reshape_writes .., binary_writes .., unary_writes .., reshape_writes .., binary_writes .., nullary_writes .., unary_writes .., nullary_writes .., unary_writes .., unary_writes .., ternary_writes .., nullary_writes .., unary_writes .., binary_writes .., unary_writes .., nullary_writes .., trivial⟩
theorem writes0_1 : Writes (hostOps0_1 (F := F)) [main_call0_v0, main_call0_v1, main_v14] :=
  ⟨unary_writes .., unary_writes .., ternary_writes .., trivial⟩
theorem writes0_2 : Writes (hostOps0_2 (F := F)) [main_c, main_v15, main_v16, main_c_3, main_v17, main_v18, main_v19, main_v20, main_v21, main_c_4, main_v22, main_v23, main_c_5, main_v24, main_v25, main_v26, main_v27, main_v28, main_v29] :=
  ⟨nullary_writes .., unary_writes .., binary_writes .., nullary_writes .., unary_writes .., binary_writes .., ternary_writes .., unary_writes .., binary_writes .., nullary_writes .., unary_writes .., binary_writes .., nullary_writes .., unary_writes .., binary_writes .., ternary_writes .., unary_writes .., binary_writes .., binary_writes .., trivial⟩
theorem writes1 : Writes (hostOps1 (F := F)) [main_c_6, main_v31, main_v32, main_c_7, main_v33, main_v34, main_v35, main_v36, main_v37, main_v38, main_v39, main_v40, main_cst_8, main_v41, main_v42, main_v43, main_v44, main_v45, main_v46] :=
  ⟨nullary_writes .., unary_writes .., binary_writes .., nullary_writes .., unary_writes .., binary_writes .., ternary_writes .., unary_writes .., binary_writes .., unary_writes .., unary_writes .., binary_writes .., nullary_writes .., unary_writes .., unary_writes .., ternary_writes .., unary_writes .., unary_writes .., binary_writes .., trivial⟩
theorem writes1_1 : Writes (hostOps1_1 (F := F)) [main_call1_cst, main_call1_v0, main_v47] :=
  ⟨nullary_writes .., unary_writes .., binary_writes .., trivial⟩
theorem writes2 : Writes (hostOps2 (F := F)) [main_c_9, main_v49, main_v50, main_c_10, main_v51, main_v52, main_v53, main_v54, main_v55, main_v56, main_v57, main_v58, main_cst_11, main_v59, main_v60, main_v61, main_v62, main_v63, main_v64] :=
  ⟨nullary_writes .., unary_writes .., binary_writes .., nullary_writes .., unary_writes .., binary_writes .., ternary_writes .., unary_writes .., binary_writes .., unary_writes .., unary_writes .., binary_writes .., nullary_writes .., unary_writes .., unary_writes .., ternary_writes .., unary_writes .., unary_writes .., binary_writes .., trivial⟩

/-- The last stretch before the first product multiplies dinv gathered at the sources by dinv gathered at the targets. -/
theorem s2_norm : after hostOps0_2 V (Proc.devRef .tc main_v29)
    = mulf (Host.gather Cert.ReferenceIdeal.gather_S50000_S1650000x1_S1650000_n_0_n_n_0_1_1 (V (Proc.devRef .tc main_v14)) (Cert.Gcn.wrapped (V (Proc.devRef .tc main_v3))))
        (Host.gather Cert.ReferenceIdeal.gather_S50000_S1650000x1_S1650000_n_0_n_n_0_1_1 (V (Proc.devRef .tc main_v14)) (Cert.Gcn.wrapped (V (Proc.devRef .tc main_v6)))) := by
  after_results_simp
  rfl

/-- The stretch before it selects, node by node, the inverse square root where the degree is positive and zero elsewhere. -/
theorem s1_dinv : after hostOps0_1 V (Proc.devRef .tc main_v14)
    = select (V (Proc.devRef .tc main_v12)) (V (Proc.devRef .tc main_v13))
        (broadcastInDim Cert.ReferenceIdeal.S50000 ![] Cert.ReferenceIdeal.Gen.bcast_S_S50000 (id (V (Proc.devRef .tc main_cst_2)))) := by
  after_results_simp
  rfl

/-- The first stretch leaves the comparison of the degrees with zero, … -/
theorem s0_pos : after hostOps0 V (Proc.devRef .tc main_v12)
    = cmpf .ogt (Cert.Gcn.deg (Cert.Gcn.dst (V (Proc.devRef .tc main_arg1))))
        (broadcastInDim Cert.ReferenceIdeal.S50000 ![] Cert.ReferenceIdeal.Gen.bcast_S_S50000 (constant Cert.ReferenceIdeal.S_ .f32 0x00000000#32)) := by
  after_results
  rfl

/-- … their inverse square roots, … -/
theorem s0_rsqrt : after hostOps0 V (Proc.devRef .tc main_v13) = Host.rsqrt (Cert.Gcn.deg (Cert.Gcn.dst (V (Proc.devRef .tc main_arg1)))) := by
  after_results
  rfl

/-- … and the constant zero. -/
theorem s0_zero : after hostOps0 V (Proc.devRef .tc main_cst_2) = constant Cert.ReferenceIdeal.S_ .f32 0x00000000#32 := by
  after_results

/-- The first stretch alone already has the two edge lists. -/
theorem s0_src : after hostOps0 V (Proc.devRef .tc main_v3) = Cert.Gcn.src (V (Proc.devRef .tc main_arg1)) := by
  after_results
  rfl
theorem s0_dst : after hostOps0 V (Proc.devRef .tc main_v6) = Cert.Gcn.dst (V (Proc.devRef .tc main_arg1)) := by
  after_results
  rfl

/-- Before the first product: the source list is row 0 of the edge table followed by the self loops. -/
theorem pre_src : after hostOps0_2 (after hostOps0_1 (after hostOps0 V)) (Proc.devRef .tc main_v3) = Cert.Gcn.src (V (Proc.devRef .tc main_arg1)) := by
  rw [after_of_writes writes0_2 (r := main_v3) (by decide), after_of_writes writes0_1 (r := main_v3) (by decide), s0_src]

/-- The target list is row 1 of the edge table followed by the self loops. -/
theorem pre_dst : after hostOps0_2 (after hostOps0_1 (after hostOps0 V)) (Proc.devRef .tc main_v6) = Cert.Gcn.dst (V (Proc.devRef .tc main_arg1)) := by
  rw [after_of_writes writes0_2 (r := main_v6) (by decide), after_of_writes writes0_1 (r := main_v6) (by decide), s0_dst]

/-- The edge weights: dinv at the source times dinv at the target, dinv from the in-degrees counted at the targets. -/
theorem pre_norm : after hostOps0_2 (after hostOps0_1 (after hostOps0 V)) (Proc.devRef .tc main_v29)
    = Cert.Gcn.norm (Cert.Gcn.src (V (Proc.devRef .tc main_arg1))) (Cert.Gcn.dst (V (Proc.devRef .tc main_arg1))) := by
  rw [s2_norm, s1_dinv, after_of_writes writes0_1 (r := main_v3) (by decide), after_of_writes writes0_1 (r := main_v6) (by decide),
    s0_pos, s0_rsqrt, s0_zero, s0_src, s0_dst]
  rfl

/-- A buffer the first three stretches do not write keeps its contents through them. -/
theorem pre_keep {r : Ref sig .tc} (h0 : r ∉ [main_v0, main_v1, main_v2, main_v3, main_v4, main_v5, main_v6, main_cst, main_v7, main_cst_0, main_v8, main_v9, main_v10, main_cst_1, main_v11, main_v12, main_v13, main_cst_2]) (h1 : r ∉ [main_call0_v0, main_call0_v1, main_v14])
    (h2 : r ∉ [main_c, main_v15, main_v16, main_c_3, main_v17, main_v18, main_v19, main_v20, main_v21, main_c_4, main_v22, main_v23, main_c_5, main_v24, main_v25, main_v26, main_v27, main_v28, main_v29]) :
    after hostOps0_2 (after hostOps0_1 (after hostOps0 V)) (Proc.devRef .tc r) = V (Proc.devRef .tc r) := by
  rw [after_of_writes writes0_2 h2, after_of_writes writes0_1 h1, after_of_writes writes0 h0]

/-- Between the products: the first layer of the first product `main_v30`, over the edge lists and weights found. -/
theorem mid_layer : after hostOps1_1 (after hostOps1 V) (Proc.devRef .tc main_v47)
    = Cert.Gcn.layer1 (V (Proc.devRef .tc main_v30)) (V (Proc.devRef .tc main_v3)) (V (Proc.devRef .tc main_v6)) (V (Proc.devRef .tc main_v29)) (V (Proc.devRef .tc main_arg3)) := by
  after_results_simp
  rfl

/-- A buffer the middle stretches do not write keeps its contents through them. -/
theorem mid_keep {r : Ref sig .tc} (h0 : r ∉ [main_c_6, main_v31, main_v32, main_c_7, main_v33, main_v34, main_v35, main_v36, main_v37, main_v38, main_v39, main_v40, main_cst_8, main_v41, main_v42, main_v43, main_v44, main_v45, main_v46]) (h1 : r ∉ [main_call1_cst, main_call1_v0, main_v47]) :
    after hostOps1_1 (after hostOps1 V) (Proc.devRef .tc r) = V (Proc.devRef .tc r) := by
  rw [after_of_writes writes1_1 h1, after_of_writes writes1 h0]

/-- After the second product `main_v48`: the second layer. -/
theorem post_layer : after hostOps2 V (Proc.devRef .tc main_v64)
    = Cert.Gcn.layer2 (V (Proc.devRef .tc main_v48)) (V (Proc.devRef .tc main_v3)) (V (Proc.devRef .tc main_v6)) (V (Proc.devRef .tc main_v29)) (V (Proc.devRef .tc main_arg5)) := by
  after_results_simp
  rfl

end Stretches

/-! ## The fold, boundary by boundary, on the extended reals -/

variable (m : (ℓ : Loc nD τ sig) → Buf (Elt Ideal) ℓ) (ρ : Dev nD → PrngReg) (c : Dev nD)

/-- At the first region's entry. -/
theorem w3_src : W3 m ρ c (Proc.devRef .tc main_v3) = Cert.Gcn.src (m ((c : Thread nD τ).loc main_arg1)) := pre_src (W0 m ρ c)
theorem w3_dst : W3 m ρ c (Proc.devRef .tc main_v6) = Cert.Gcn.dst (m ((c : Thread nD τ).loc main_arg1)) := pre_dst (W0 m ρ c)
theorem w3_norm : W3 m ρ c (Proc.devRef .tc main_v29)
    = Cert.Gcn.norm (Cert.Gcn.src (m ((c : Thread nD τ).loc main_arg1))) (Cert.Gcn.dst (m ((c : Thread nD τ).loc main_arg1))) := pre_norm (W0 m ρ c)
theorem w3_arg0 : W3 m ρ c (Proc.devRef .tc main_arg0) = m ((c : Thread nD τ).loc main_arg0) := pre_keep (W0 m ρ c) (by decide) (by decide) (by decide)
theorem w3_arg2 : W3 m ρ c (Proc.devRef .tc main_arg2) = m ((c : Thread nD τ).loc main_arg2) := pre_keep (W0 m ρ c) (by decide) (by decide) (by decide)
theorem w3_arg3 : W3 m ρ c (Proc.devRef .tc main_arg3) = m ((c : Thread nD τ).loc main_arg3) := pre_keep (W0 m ρ c) (by decide) (by decide) (by decide)
theorem w3_arg4 : W3 m ρ c (Proc.devRef .tc main_arg4) = m ((c : Thread nD τ).loc main_arg4) := pre_keep (W0 m ρ c) (by decide) (by decide) (by decide)
theorem w3_arg5 : W3 m ρ c (Proc.devRef .tc main_arg5) = m ((c : Thread nD τ).loc main_arg5) := pre_keep (W0 m ρ c) (by decide) (by decide) (by decide)

/-- At the first region's exit: its output array holds the product x·W1; everything else is as at its entry. -/
theorem w4_prod : W4 m ρ c (Proc.devRef .tc main_v30)
    = Cert.Gcn.hostDot1 (m ((c : Thread nD τ).loc main_arg0)) (m ((c : Thread nD τ).loc main_arg2)) := by
  refine (W4_arr m ρ c 2).trans ((Blocks.final0 (V3 m ρ) c).trans ?_)
  show Cert.Gcn.hostDot1 (W3 m ρ c (Proc.devRef .tc main_arg0)) (W3 m ρ c (Proc.devRef .tc main_arg2)) = _
  rw [w3_arg0, w3_arg2]
theorem w4_src : W4 m ρ c (Proc.devRef .tc main_v3) = Cert.Gcn.src (m ((c : Thread nD τ).loc main_arg1)) :=
  (W4_of_ne m ρ c main_v3 (by decide)).trans (w3_src m ρ c)
theorem w4_dst : W4 m ρ c (Proc.devRef .tc main_v6) = Cert.Gcn.dst (m ((c : Thread nD τ).loc main_arg1)) :=
  (W4_of_ne m ρ c main_v6 (by decide)).trans (w3_dst m ρ c)
theorem w4_norm : W4 m ρ c (Proc.devRef .tc main_v29)
    = Cert.Gcn.norm (Cert.Gcn.src (m ((c : Thread nD τ).loc main_arg1))) (Cert.Gcn.dst (m ((c : Thread nD τ).loc main_arg1))) :=
  (W4_of_ne m ρ c main_v29 (by decide)).trans (w3_norm m ρ c)
theorem w4_arg3 : W4 m ρ c (Proc.devRef .tc main_arg3) = m ((c : Thread nD τ).loc main_arg3) := (W4_of_ne m ρ c main_arg3 (by decide)).trans (w3_arg3 m ρ c)
theorem w4_arg4 : W4 m ρ c (Proc.devRef .tc main_arg4) = m ((c : Thread nD τ).loc main_arg4) := (W4_of_ne m ρ c main_arg4 (by decide)).trans (w3_arg4 m ρ c)
theorem w4_arg5 : W4 m ρ c (Proc.devRef .tc main_arg5) = m ((c : Thread nD τ).loc main_arg5) := (W4_of_ne m ρ c main_arg5 (by decide)).trans (w3_arg5 m ρ c)

/-- The hidden layer: what the second region is entered with. -/
def hidden : (⟨Cert.ReferenceIdeal.S50000x128, .f32⟩ : BufTy).Contents (Elt Ideal) :=
  Cert.Gcn.layer1 (Cert.Gcn.hostDot1 (m ((c : Thread nD τ).loc main_arg0)) (m ((c : Thread nD τ).loc main_arg2)))
    (Cert.Gcn.src (m ((c : Thread nD τ).loc main_arg1))) (Cert.Gcn.dst (m ((c : Thread nD τ).loc main_arg1)))
    (Cert.Gcn.norm (Cert.Gcn.src (m ((c : Thread nD τ).loc main_arg1))) (Cert.Gcn.dst (m ((c : Thread nD τ).loc main_arg1))))
    (m ((c : Thread nD τ).loc main_arg3))

/-- At the second region's entry. -/
theorem w6_hidden : W6 m ρ c (Proc.devRef .tc main_v47) = hidden m c := by
  refine (mid_layer (W4 m ρ c)).trans ?_
  rw [w4_prod, w4_src, w4_dst, w4_norm, w4_arg3]
  rfl
theorem w6_src : W6 m ρ c (Proc.devRef .tc main_v3) = Cert.Gcn.src (m ((c : Thread nD τ).loc main_arg1)) :=
  (mid_keep (W4 m ρ c) (by decide) (by decide)).trans (w4_src m ρ c)
theorem w6_dst : W6 m ρ c (Proc.devRef .tc main_v6) = Cert.Gcn.dst (m ((c : Thread nD τ).loc main_arg1)) :=
  (mid_keep (W4 m ρ c) (by decide) (by decide)).trans (w4_dst m ρ c)
theorem w6_norm : W6 m ρ c (Proc.devRef .tc main_v29)
    = Cert.Gcn.norm (Cert.Gcn.src (m ((c : Thread nD τ).loc main_arg1))) (Cert.Gcn.dst (m ((c : Thread nD τ).loc main_arg1))) :=
  (mid_keep (W4 m ρ c) (by decide) (by decide)).trans (w4_norm m ρ c)
theorem w6_arg4 : W6 m ρ c (Proc.devRef .tc main_arg4) = m ((c : Thread nD τ).loc main_arg4) := (mid_keep (W4 m ρ c) (by decide) (by decide)).trans (w4_arg4 m ρ c)
theorem w6_arg5 : W6 m ρ c (Proc.devRef .tc main_arg5) = m ((c : Thread nD τ).loc main_arg5) := (mid_keep (W4 m ρ c) (by decide) (by decide)).trans (w4_arg5 m ρ c)

/-- At the second region's exit: its output array holds the product hidden·W2; everything else is as at its entry. -/
theorem w7_prod : W7 m ρ c (Proc.devRef .tc main_v48) = Cert.Gcn.hostDot2 (hidden m c) (m ((c : Thread nD τ).loc main_arg4)) := by
  refine (W7_arr m ρ c 2).trans ((Blocks.final1 (V6 m ρ) c).trans ?_)
  show Cert.Gcn.hostDot2 (W6 m ρ c (Proc.devRef .tc main_v47)) (W6 m ρ c (Proc.devRef .tc main_arg4)) = _
  rw [w6_hidden, w6_arg4]
theorem w7_src : W7 m ρ c (Proc.devRef .tc main_v3) = Cert.Gcn.src (m ((c : Thread nD τ).loc main_arg1)) :=
  (W7_of_ne m ρ c main_v3 (by decide)).trans (w6_src m ρ c)
theorem w7_dst : W7 m ρ c (Proc.devRef .tc main_v6) = Cert.Gcn.dst (m ((c : Thread nD τ).loc main_arg1)) :=
  (W7_of_ne m ρ c main_v6 (by decide)).trans (w6_dst m ρ c)
theorem w7_norm : W7 m ρ c (Proc.devRef .tc main_v29)
    = Cert.Gcn.norm (Cert.Gcn.src (m ((c : Thread nD τ).loc main_arg1))) (Cert.Gcn.dst (m ((c : Thread nD τ).loc main_arg1))) :=
  (W7_of_ne m ρ c main_v29 (by decide)).trans (w6_norm m ρ c)
theorem w7_arg5 : W7 m ρ c (Proc.devRef .tc main_arg5) = m ((c : Thread nD τ).loc main_arg5) := (W7_of_ne m ρ c main_arg5 (by decide)).trans (w6_arg5 m ρ c)

/-- THE RESULT: after the last stretch the result buffer holds the network function of the arguments. -/
theorem result : W8 m ρ c (Proc.devRef .tc main_v64)
    = Cert.Gcn.net (m ((c : Thread nD τ).loc main_arg0)) (Cert.Gcn.src (m ((c : Thread nD τ).loc main_arg1))) (Cert.Gcn.dst (m ((c : Thread nD τ).loc main_arg1)))
        (m ((c : Thread nD τ).loc main_arg2)) (m ((c : Thread nD τ).loc main_arg3)) (m ((c : Thread nD τ).loc main_arg4)) (m ((c : Thread nD τ).loc main_arg5)) := by
  refine (post_layer (W7 m ρ c)).trans ?_
  rw [w7_prod, w7_src, w7_dst, w7_norm, w7_arg5]
  rfl

end Cert.KernelIdeal.HostValue

end
-- ==== Proof.RefValue.lean ====
/- The reference program's result buffer, read through the fold of its 116 host operations from ANY contents `V`. The first
   seven operations build the two edge lists (a row of the edge table, reshaped, with the self loops appended): they are
   read first, by rewriting. The other 109 never touch the edge table again: from the contents after the first seven they
   compute the first matrix product, the edge weights, the first layer, the second product, the edge weights once more
   (the same function of the same two lists), and the second layer — which is the network function. -/
import proofs.«151778_j3848290697713_1_alg».proof.Proof.Layers
import proofs.«151778_j3848290697713_1_alg».proof.Proof.RefRun
import proofs.«151778_j3848290697713_1_alg».proof.Proof.LibWrites

set_option maxRecDepth 16384

noncomputable section

namespace Cert.ReferenceIdeal.RefValue

open Cert.ReferenceIdeal Cert.ReferenceIdeal.Gen Cert.ReferenceIdeal.ValueP
open Idealize.ShloMosaic Idealize.ShloMosaic.StableHlo Idealize.ShloMosaic.TcCoe Idealize.SL.Sem

variable {F : FTy → Type} [FloatOps F] (V : Valuation τ sig (Elt F))

/-- After the first seven operations the source list is row 0 of the edge table followed by the self loops. -/
theorem head_src : after ((ops (F := F)).take 7) V (Proc.devRef .tc main_v3) = Cert.Gcn.src (V (Proc.devRef .tc main_arg1)) := by
  simp only [ops, List.take_succ_cons, List.take_zero]
  after_results
  rfl

/-- … and the target list is row 1 followed by the self loops. -/
theorem head_dst : after ((ops (F := F)).take 7) V (Proc.devRef .tc main_v6) = Cert.Gcn.dst (V (Proc.devRef .tc main_arg1)) := by
  simp only [ops, List.take_succ_cons, List.take_zero]
  after_results
  rfl

/-- The first seven operations write no argument. -/
theorem head_arg0 : after ((ops (F := F)).take 7) V (Proc.devRef .tc main_arg0) = V (Proc.devRef .tc main_arg0) := by
  simp only [ops, List.take_succ_cons, List.take_zero]
  after_results
theorem head_arg2 : after ((ops (F := F)).take 7) V (Proc.devRef .tc main_arg2) = V (Proc.devRef .tc main_arg2) := by
  simp only [ops, List.take_succ_cons, List.take_zero]
  after_results
theorem head_arg3 : after ((ops (F := F)).take 7) V (Proc.devRef .tc main_arg3) = V (Proc.devRef .tc main_arg3) := by
  simp only [ops, List.take_succ_cons, List.take_zero]
  after_results
theorem head_arg4 : after ((ops (F := F)).take 7) V (Proc.devRef .tc main_arg4) = V (Proc.devRef .tc main_arg4) := by
  simp only [ops, List.take_succ_cons, List.take_zero]
  after_results
theorem head_arg5 : after ((ops (F := F)).take 7) V (Proc.devRef .tc main_arg5) = V (Proc.devRef .tc main_arg5) := by
  simp only [ops, List.take_succ_cons, List.take_zero]
  after_results

set_option maxHeartbeats 4000000 in
/-- The other 109 operations, from any contents `U`: the network function of the matrices found and the two edge lists
    found (the edge weights are computed twice, each time as `norm` of the two lists). -/
theorem tail_net (U : Valuation τ sig (Elt F)) : after ((ops (F := F)).drop 7) U (Proc.devRef .tc main_v87)
    = Cert.Gcn.net (U (Proc.devRef .tc main_arg0)) (U (Proc.devRef .tc main_v3)) (U (Proc.devRef .tc main_v6))
        (U (Proc.devRef .tc main_arg2)) (U (Proc.devRef .tc main_arg3)) (U (Proc.devRef .tc main_arg4)) (U (Proc.devRef .tc main_arg5)) := by
  simp only [ops, List.drop_succ_cons, List.drop_zero]
  after_results_simp
  rfl

/-- THE RESULT: after all the operations the result buffer holds the network function of the arguments. -/
theorem result : after (ops (F := F)) V (Proc.devRef .tc main_v87)
    = Cert.Gcn.net (V (Proc.devRef .tc main_arg0)) (Cert.Gcn.src (V (Proc.devRef .tc main_arg1))) (Cert.Gcn.dst (V (Proc.devRef .tc main_arg1)))
        (V (Proc.devRef .tc main_arg2)) (V (Proc.devRef .tc main_arg3)) (V (Proc.devRef .tc main_arg4)) (V (Proc.devRef .tc main_arg5)) := by
  rw [after_split ops 7 V, tail_net, head_src, head_dst, head_arg0, head_arg2, head_arg3, head_arg4, head_arg5]

set_option maxHeartbeats 4000000 in
/-- No operation writes an argument. -/
theorem kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5) := by
  refine ⟨?_, ?_, ?_, ?_, ?_, ?_⟩ <;> after_results_simp

end Cert.ReferenceIdeal.RefValue

end
-- ==== Proof.lean ====
/- The certificate of a two-layer graph convolution: the kernel computes its two dense products x·W1 and h·W2 in two
   pipelined regions of ten row blocks each (the operands rounded to bf16 on the way in, accumulated in f32) and leaves
   the sparse part — degrees, edge weights, gather, weighted scatter-add, bias, clamp — to host operations around them;
   the reference does everything on the host, with `dot_general` for the products, and recomputes the edge weights in
   its second layer.

   On the extended reals a change of float format is the identity and both kinds of product are the same finite sums, so
   each region leaves in its output array exactly the host's product of its two input arrays (MatmulBlocks). The host
   operations around the products are the same in both programs; they are named once as functions of arrays (Layers),
   each program's result buffer is read back as the network function `Cert.Gcn.net` of the six arguments (HostValue for
   the kernel, over the run of KernelRun; RefValue for the reference, over the run of RefRun), and the two runs then end
   with equal results from memories that agree on the arguments. No law of arithmetic beyond reading both products as
   sums is used, so the precondition (finite inputs) is never opened. The three frames are the generated frame
   certificates (the reference's: its run with the result dropped); the idealization rewrote nothing, so `preserves` is
   trivial. -/
import proofs.«151778_j3848290697713_1_alg».proof.Defs
import proofs.«151778_j3848290697713_1_alg».proof.Proof.Gen.Kernel
import proofs.«151778_j3848290697713_1_alg».proof.Proof.Gen.Kernel.Skeleton
import proofs.«151778_j3848290697713_1_alg».proof.Proof.Gen.Kernel.Launch
import proofs.«151778_j3848290697713_1_alg».proof.Proof.Gen.Kernel.Points
import proofs.«151778_j3848290697713_1_alg».proof.Proof.Gen.Kernel.Frame
import proofs.«151778_j3848290697713_1_alg».proof.Proof.Gen.KernelIdeal
import proofs.«151778_j3848290697713_1_alg».proof.Proof.Gen.KernelIdeal.Skeleton
import proofs.«151778_j3848290697713_1_alg».proof.Proof.Gen.KernelIdeal.Launch
import proofs.«151778_j3848290697713_1_alg».proof.Proof.Gen.KernelIdeal.Points
import proofs.«151778_j3848290697713_1_alg».proof.Proof.Gen.KernelIdeal.Frame
import proofs.«151778_j3848290697713_1_alg».proof.Proof.Gen.ReferenceIdeal
import proofs.«151778_j3848290697713_1_alg».proof.Proof.Gen.Pre_finite_inputs
import proofs.«151778_j3848290697713_1_alg».proof.Proof.Layers
import proofs.«151778_j3848290697713_1_alg».proof.Proof.KernelRun
import proofs.«151778_j3848290697713_1_alg».proof.Proof.HostValue
import proofs.«151778_j3848290697713_1_alg».proof.Proof.RefRun
import proofs.«151778_j3848290697713_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, every buffer read back through the fold of its operations, none of which writes an
    argument. -/
theorem frame_reference : Cert.frame_ReferenceIdeal := fun m ρ _ =>
  (θ_run Cert.ReferenceIdeal.defs _ _).mono (fun r h c =>
      have k := Cert.ReferenceIdeal.RefValue.kept (F := Ideal) (StableHlo.launchContents m c)
      ⟨(h c Cert.ReferenceIdeal.main_arg0).trans k.1, (h c Cert.ReferenceIdeal.main_arg1).trans k.2.1, (h c Cert.ReferenceIdeal.main_arg2).trans k.2.2.1,
       (h c Cert.ReferenceIdeal.main_arg3).trans k.2.2.2.1, (h c Cert.ReferenceIdeal.main_arg4).trans k.2.2.2.2.1, (h c Cert.ReferenceIdeal.main_arg5).trans k.2.2.2.2.2⟩)
    (Cert.ReferenceIdeal.ValueP.run (F := Ideal) m ρ)

theorem preserves : Cert.preserves_Kernel_KernelIdeal := trivial

/-- Both programs end with the network function of their arguments in their result buffers; the arguments agree. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (Cert.Gcn.src (m ((c.tc : Thread Cert.KernelIdeal.nD Cert.KernelIdeal.τ).loc Cert.KernelIdeal.main_arg1))) (Cert.Gcn.dst (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.HostValue.result m ρ c), (h c).2⟩)
      (Cert.KernelIdeal.RunValue.run (F := Ideal) m ρ)
  · refine (θ_run Cert.ReferenceIdeal.defs _ _).mono (fun r h c => ?_) (Cert.ReferenceIdeal.ValueP.run (F := Ideal) m' ρ')
    have k := Cert.ReferenceIdeal.RefValue.kept (F := Ideal) (StableHlo.launchContents m' c)
    refine ⟨?_, (h c Cert.ReferenceIdeal.main_arg0).trans k.1, (h c Cert.ReferenceIdeal.main_arg1).trans k.2.1, (h c Cert.ReferenceIdeal.main_arg2).trans k.2.2.1,
      (h c Cert.ReferenceIdeal.main_arg3).trans k.2.2.2.1, (h c Cert.ReferenceIdeal.main_arg4).trans k.2.2.2.2.1, (h c Cert.ReferenceIdeal.main_arg5).trans k.2.2.2.2.2⟩
    refine (h c Cert.ReferenceIdeal.main_v87).trans ((Cert.ReferenceIdeal.RefValue.result (F := Ideal) (StableHlo.launchContents m' c)).trans ?_)
    obtain ⟨a0, a1, a2, a3, a4, a5⟩ := hagree c
    show Cert.Gcn.net (m' ((c.tc : Thread Cert.ReferenceIdeal.nD Cert.ReferenceIdeal.τ).loc Cert.ReferenceIdeal.main_arg0)) (Cert.Gcn.src (m' ((c.tc : Thread Cert.ReferenceIdeal.nD Cert.ReferenceIdeal.τ).loc Cert.ReferenceIdeal.main_arg1))) (Cert.Gcn.dst (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
